-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S1048576 : Shape := ⟨1, ![1048576]⟩
abbrev S65536x64 : Shape := ⟨2, ![65536, 64]⟩
abbrev S128x64 : Shape := ⟨2, ![128, 64]⟩
abbrev S64 : Shape := ⟨1, ![64]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S1048576 : S_.BroadcastsInDim S1048576 (![] : Fin 0 → Fin S1048576.rank)
  reducesTo_S1048576_S_d0 : S1048576.ReducesTo [0] S_
  bcast_S_S65536x64 : S_.BroadcastsInDim S65536x64 (![] : Fin 0 → Fin S65536x64.rank)
  reducesTo_S65536x64_S_d0_1 : S65536x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S65536x128 .f32) (main_arg1 : IVec S1048576 32) (main_arg2 : IVec S1048576 32) (main_arg3 : FVec F S1048576 .f32) (main_arg4 : FVec F S65536x64 .f32) (main_arg5 : FVec F S128x64 .f32) (main_arg6 : FVec F S64 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S1048576 .f32 := Host.absf main_arg3
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S65536x64 .f32 := Host.absf main_arg4
  let main_cst_2 : FVec F S_ .f32 := constant S_ .f32 0x7F800000#32
  let main_v10 : FVec F S65536x64 .f32 := broadcastInDim S65536x64 ![] bcast_S_S65536x64 main_cst_2
  let main_v11 : IVec S65536x64 1 := cmpf .olt main_v9 main_v10
  let main_c_3 : IVec S_ 1 := constantI S_ 1 1#1
  let main_v12 : IVec S_ 1 := (fun x v => Host.reduce IntOp.andi x v reducesTo_S65536x64_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S65536x128 : Shape := ⟨2, ![65536, 128]⟩
abbrev S1048576 : Shape := ⟨1, ![1048576]⟩
abbrev S65536x64 : Shape := ⟨2, ![65536, 64]⟩
abbrev S128x64 : Shape := ⟨2, ![128, 64]⟩
abbrev S64 : Shape := ⟨1, ![64]⟩
abbrev S8192x128 : Shape := ⟨2, ![8192, 128]⟩
abbrev S8192x64 : Shape := ⟨2, ![8192, 64]⟩
abbrev S_ : Shape := ⟨0, ![]⟩
abbrev S1048576x1 : Shape := ⟨2, ![1048576, 1]⟩
abbrev S1048576x64 : Shape := ⟨2, ![1048576, 64]⟩
abbrev S32768x128 : Shape := ⟨2, ![32768, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S4096x128 : Shape := ⟨2, ![4096, 128]⟩

abbrev nBuf : Space → Nat
  | .hbm => 32
  | .vmem => 12
  | .smem => 0
  | _ => 0

abbrev bufTy : (tb : Table) → Fin (tcTables nBuf tb) → BufTy
  | .hbm, ⟨0, _⟩ => ⟨S65536x128, .f32⟩
  | .hbm, ⟨1, _⟩ => ⟨S1048576, .i32⟩
  | .hbm, ⟨2, _⟩ => ⟨S1048576, .i32⟩
  | .hbm, ⟨3, _⟩ => ⟨S1048576, .f32⟩
  | .hbm, ⟨4, _⟩ => ⟨S65536x64, .f32⟩
  | .hbm, ⟨5, _⟩ => ⟨S128x64, .f32⟩
  | .hbm, ⟨6, _⟩ => ⟨S64, .f32⟩
  | .hbm, ⟨7, _⟩ => ⟨S65536x64, .f32⟩
  | .hbm, ⟨8, _⟩ => ⟨S_, .i32⟩
  | .hbm, ⟨9, _⟩ => ⟨S1048576, .i32⟩
  | .hbm, ⟨10, _⟩ => ⟨S1048576, .i1⟩
  | .hbm, ⟨11, _⟩ => ⟨S_, .i32⟩
  | .hbm, ⟨12, _⟩ => ⟨S1048576, .i32⟩
  | .hbm, ⟨13, _⟩ => ⟨S1048576, .i32⟩
  | .hbm, ⟨14, _⟩ => ⟨S1048576, .i32⟩
  | .hbm, ⟨15, _⟩ => ⟨S1048576x1, .i32⟩
  | .hbm, ⟨16, _⟩ => ⟨S1048576x64, .f32⟩
  | .hbm, ⟨17, _⟩ => ⟨S1048576x1, .f32⟩
  | .hbm, ⟨18, _⟩ => ⟨S1048576x64, .f32⟩
  | .hbm, ⟨19, _⟩ => ⟨S1048576x64, .f32⟩
  | .hbm, ⟨20, _⟩ => ⟨S_, .f32⟩
  | .hbm, ⟨21, _⟩ => ⟨S65536x64, .f32⟩
  | .hbm, ⟨22, _⟩ => ⟨S1048576x1, .i32⟩
  | .hbm, ⟨23, _⟩ => ⟨S65536x64, .f32⟩
  | .hbm, ⟨24, _⟩ => ⟨S32768x128, .f32⟩
  | .hbm, ⟨25, _⟩ => ⟨S32768x128, .f32⟩
  | .hbm, ⟨26, _⟩ => ⟨S1x64, .f32⟩
  | .hbm, ⟨27, _⟩ => ⟨S2x64, .f32⟩
  | .hbm, ⟨28, _⟩ => ⟨S128, .f32⟩
  | .hbm, ⟨29, _⟩ => ⟨S1x128, .f32⟩
  | .hbm, ⟨30, _⟩ => ⟨S32768x128, .f32⟩
  | .hbm, ⟨31, _⟩ => ⟨S65536x64, .f32⟩
  | .local _ .vmem, ⟨0, _⟩ => ⟨S8192x128, .f32⟩
  | .local _ .vmem, ⟨1, _⟩ => ⟨S8192x128, .f32⟩
  | .local _ .vmem, ⟨2, _⟩ => ⟨S128x64, .f32⟩
  | .local _ .vmem, ⟨3, _⟩ => ⟨S8192x64, .f32⟩
  | .local _ .vmem, ⟨4, _⟩ => ⟨S8192x64, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S1x128, .f32⟩
  | .local _ .vmem, ⟨10, _⟩ => ⟨S4096x128, .f32⟩
  | .local _ .vmem, ⟨11, _⟩ => ⟨S4096x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S8192x64_S8192x64_0_0 : ∀ a, (![0, 0] : Fin 2 → Nat) a + S8192x64.size a ≤ S8192x64.size a
  h_S8192x64 : 0 < S8192x64.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x64_0_1 : S1048576x1.BroadcastsInDim S1048576x64 (![0, 1] : Fin 2 → Fin S1048576x64.rank)
  bcast_S_S65536x64 : S_.BroadcastsInDim S65536x64 (![] : Fin 0 → Fin S65536x64.rank)
  shapeCasts_S65536x64_S32768x128 : S65536x64.ShapeCasts S32768x128
  shapeCasts_S64_S1x64 : S64.ShapeCasts S1x64
  bcast_S1x64_S2x64_0_1 : S1x64.BroadcastsInDim S2x64 (![0, 1] : Fin 2 → Fin S2x64.rank)
  shapeCasts_S2x64_S128 : S2x64.ShapeCasts S128
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S32768x128_S65536x64 : S32768x128.ShapeCasts S65536x64
  dot_S8192x128_S128x64_S8192x64_1_0_0_1_n_n_wf : DotDims.WF S8192x128 S128x64 S8192x64 [1] [0] [0] [1] [] []
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S65536x128.size a
  hwx0_0 : ∀ i : grid0.Coords, EltTy.bits .f32 = 32 ∨ (Rect.block (s := S65536x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S65536x64.size a
  hwx0_2 : ∀ i : grid0.Coords, EltTy.bits .f32 = 32 ∨ (Rect.block (s := S65536x64) S8192x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S32768x128.size a
  hwx1_0 : ∀ i : grid1.Coords, EltTy.bits .f32 = 32 ∨ (Rect.block (s := S32768x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S32768x128.size a
  hwx1_1 : ∀ i : grid1.Coords, EltTy.bits .f32 = 32 ∨ (Rect.block (s := S32768x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S32768x128.size a
  hwx1_3 : ∀ i : grid1.Coords, EltTy.bits .f32 = 32 ∨ (Rect.block (s := S32768x128) S4096x128.size (cc1_transform_3 i) (hinb1_3 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S65536x128 : Shape := ⟨2, ![65536, 128]⟩
abbrev S1048576 : Shape := ⟨1, ![1048576]⟩
abbrev S65536x64 : Shape := ⟨2, ![65536, 64]⟩
abbrev S128x64 : Shape := ⟨2, ![128, 64]⟩
abbrev S64 : Shape := ⟨1, ![64]⟩
abbrev S1048576x1 : Shape := ⟨2, ![1048576, 1]⟩
abbrev S_ : Shape := ⟨0, ![]⟩
abbrev S1048576x64 : Shape := ⟨2, ![1048576, 64]⟩
abbrev S1x64 : Shape := ⟨2, ![1, 64]⟩

abbrev nBuf : Space → Nat
  | .hbm => 28
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S1048576, .i32⟩
  | .hbm, ⟨2, _⟩ => ⟨S1048576, .i32⟩
  | .hbm, ⟨3, _⟩ => ⟨S1048576, .f32⟩
  | .hbm, ⟨4, _⟩ => ⟨S65536x64, .f32⟩
  | .hbm, ⟨5, _⟩ => ⟨S128x64, .f32⟩
  | .hbm, ⟨6, _⟩ => ⟨S64, .f32⟩
  | .hbm, ⟨7, _⟩ => ⟨S65536x64, .f32⟩
  | .hbm, ⟨8, _⟩ => ⟨S1048576x1, .f32⟩
  | .hbm, ⟨9, _⟩ => ⟨S_, .i32⟩
  | .hbm, ⟨10, _⟩ => ⟨S1048576, .i32⟩
  | .hbm, ⟨11, _⟩ => ⟨S1048576, .i1⟩
  | .hbm, ⟨12, _⟩ => ⟨S_, .i32⟩
  | .hbm, ⟨13, _⟩ => ⟨S1048576, .i32⟩
  | .hbm, ⟨14, _⟩ => ⟨S1048576, .i32⟩
  | .hbm, ⟨15, _⟩ => ⟨S1048576, .i32⟩
  | .hbm, ⟨16, _⟩ => ⟨S1048576x1, .i32⟩
  | .hbm, ⟨17, _⟩ => ⟨S1048576x64, .f32⟩
  | .hbm, ⟨18, _⟩ => ⟨S1048576x64, .f32⟩
  | .hbm, ⟨19, _⟩ => ⟨S1048576x64, .f32⟩
  | .hbm, ⟨20, _⟩ => ⟨S_, .f32⟩
  | .hbm, ⟨21, _⟩ => ⟨S65536x64, .f32⟩
  | .hbm, ⟨22, _⟩ => ⟨S1048576x1, .i32⟩
  | .hbm, ⟨23, _⟩ => ⟨S65536x64, .f32⟩
  | .hbm, ⟨24, _⟩ => ⟨S65536x64, .f32⟩
  | .hbm, ⟨25, _⟩ => ⟨S1x64, .f32⟩
  | .hbm, ⟨26, _⟩ => ⟨S65536x64, .f32⟩
  | .hbm, ⟨27, _⟩ => ⟨S65536x64, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S1048576x1_S1048576x64_0_1 : S1048576x1.BroadcastsInDim S1048576x64 (![0, 1] : Fin 2 → Fin S1048576x64.rank)
  bcast_S_S65536x64 : S_.BroadcastsInDim S65536x64 (![] : Fin 0 → Fin S65536x64.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  dot_S65536x128_S128x64_S65536x64_1_0_0_1_n_n_wf : DotDims.WF S65536x128 S128x64 S65536x64 [1] [0] [0] [1] [] []
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1

variable [Facts₀]

def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf

class Facts : Prop extends Facts₀ where

variable [Facts]
-- ==== Proof.MainRun.lean ====
/-
  The idealized kernel program's run, with its result named.

  @main is four segments: the projection region, a stretch of host operations (index normalisation, gather, scaling,
  scatter-add, the lane-dense re-layouts), the gate region, and one host reshape. The buffer contents at each boundary
  are a fold from the launch memory: a host stretch applies its operations, a region replaces its arrays by what its
  write-backs leave. Every weakly fair execution terminates in a state whose unscoped buffers hold the last fold
  `W4`; read at the result buffer that names the result, and read at an argument it walks back to the launch memory.
-/
import proofs.«103432_j16578573762726_2_alg».proof.Proof.Gen.KernelIdeal.Frame

set_option maxRecDepth 16384

noncomputable section

namespace Cert.KernelIdeal.MainRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; the result buffer ends at the last boundary's
    contents `W4` and each argument array as launched. -/
theorem run_named : θ_run defs (onTc (τ := τ) (main (F := F))) ⟨m, fun _ => 0, ρ⟩ (fun r => ∀ c : Dev nD,
      r.2.mem ((c.tc : Thread nD τ).loc main_v21) = W4 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipeline library's own; no ghost resource per core
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      -- each segment's exit state is the next one's entry state by name; the last regroups the generator register
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      -- the last thread state holds every unscoped buffer at `W4`: the final memory agrees with it there
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v21 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.MainRun

end
-- ==== Proof.LibPlainDot.lean ====
/-
  A plain matrix product read at an index, over the extended reals.

  For dimension numbers that contract the left operand's axis 1 with the right operand's axis 0 and keep
  (left axis 0, right axis 1) as the result's axes, the contraction at result index `(a, b)` is
  `Σ_{k < K} l(a, k) · r(k, b)`: the same plain sum for a `tpu.matmul` into a zero accumulator and for the host's
  `dot_general`, whatever the rows' extent. The dimension record enters through four coordinate facts about how it
  reads its operands (for a printed record each holds by computation), so the lemmas serve every extent.
-/
import Idealize.ShloMosaic.Lib.ValueIdx
import Idealize.ShloMosaic.PureOps.Ideal.Laws

noncomputable section

namespace Cert.Lib.PlainDot

open Idealize.ShloMosaic Idealize.ShloMosaic.ValueIdx

variable {R K C : Nat} {φ₁ φ₂ : FTy}

/-- How a rows×inner by inner×cols dimension record reads its operands: one contracted axis of extent `K`; at result
    index `i` and contraction position `q` the left operand is read at `(i 0, q)` and the right at `(q, i 1)`. -/
structure Reads (d : DotDims (⟨2, ![R, K]⟩ : Shape) (⟨2, ![K, C]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (q ⟨0, by omega⟩).val
  rhs1 : ∀ (i : (⟨2, ![R, C]⟩ : Shape).Idx) (q : d.contr.Idx), (d.rhsIdx i q 1).val = (i 1).val

variable {d : DotDims (⟨2, ![R, K]⟩ : Shape) (⟨2, ![K, C]⟩ : Shape) (⟨2, ![R, C]⟩ : Shape)}

/-- The sum over the record's contraction index is the sum over the inner axis' coordinate. -/
theorem sum_contr (h : Reads d) (l : FVec Ideal (⟨2, ![R, K]⟩ : Shape) φ₁) (r : FVec Ideal (⟨2, ![K, C]⟩ : Shape) φ₂)
    (a : Fin R) (b : Fin C) :
    ∑ q : d.contr.Idx, l (d.lhsIdx (ix2 a b) q) * r (d.rhsIdx (ix2 a b) q) = ∑ k : Fin K, l (ix2 a k) * r (ix2 k b) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 k b := funext fun x => Fin.ext (by
    match x with
    | ⟨0, _⟩ => exact (h.rhs0 _ _).trans hk
    | ⟨1, _⟩ => exact h.rhs1 _ _)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![K, C]⟩ : Shape) φ₂) (a : Fin R) (b : Fin C) :
    FloatOps.matmul d prec l r (constant (⟨2, ![R, C]⟩ : Shape) .f32 0x00000000#32) (ix2 a b)
      = ∑ k : Fin K, l (ix2 a k) * r (ix2 k b) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![K, C]⟩ : Shape) φ₂) (a : Fin R) (b : Fin C) :
    FloatOps.dotGeneral d prec sched l r (ix2 a b) = ∑ k : Fin K, l (ix2 a k) * r (ix2 k b) :=
  (Ideal.dotGeneral_apply d prec sched l r (ix2 a b)).trans (sum_contr h l r a b)

end Cert.Lib.PlainDot

end
-- ==== Proof.Projection.lean ====
/-
  The projection region: after its eight grid points the result array holds the whole matrix product.

  Point t loads rows 8192·t … 8192·t + 8191 of X and all of W, and stores the product of that row block with W (the
  casts to a narrower float format are identities on the extended reals, and the accumulator starts at zero). Entry
  (a, b) of the block is Σ_k X(8192·t + a, k) · W(k, b): exactly entry (8192·t + a, b) of the whole product X·W. The eight
  row blocks tile the 65536 rows, so the array ends as X·W — written here as the plain host contraction of the two
  argument arrays.
-/
import proofs.«103432_j16578573762726_2_alg».proof.Proof.Gen.KernelIdeal.Frame
import proofs.«103432_j16578573762726_2_alg».proof.Proof.Gen.ReferenceIdeal
import proofs.«103432_j16578573762726_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Projection

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The region's dimension record contracts the left operand's columns with the right operand's rows. -/
theorem reads_block : Cert.Lib.PlainDot.Reads (R := 8192) (K := 128) (C := 64) dot_S8192x128_S128x64_S8192x64_1_0_0_1_n_n :=
  ⟨rfl, rfl, fun _ _ => rfl, fun _ _ => rfl, fun _ _ => rfl, fun _ _ => rfl⟩

/-- So does the whole product's record. -/
theorem reads_whole : Cert.Lib.PlainDot.Reads (R := 65536) (K := 128) (C := 64)
    Cert.ReferenceIdeal.dot_S65536x128_S128x64_S65536x64_1_0_0_1_n_n :=
  ⟨rfl, rfl, fun _ _ => rfl, fun _ _ => rfl, fun _ _ => rfl, fun _ _ => rfl⟩

/-- The whole product of two arrays: the host contraction over the 128 inner positions. -/
abbrev product (X : FVec Ideal Cert.ReferenceIdeal.S65536x128 .f32) (W : FVec Ideal Cert.ReferenceIdeal.S128x64 .f32) :
    FVec Ideal Cert.ReferenceIdeal.S65536x64 .f32 :=
  Host.dotGeneral (F := Ideal) Cert.ReferenceIdeal.dot_S65536x128_S128x64_S65536x64_1_0_0_1_n_n none X W

/-- What the body stores, at block entry `(a, b)`: the sum over the inner axis of the loaded blocks' products. -/
theorem stored_apply (x0 : Vec Ideal S8192x128 .f32) (x1 : Vec Ideal S128x64 .f32) (a : Fin 8192) (b : Fin 64) :
    k0_pay1 (F := Ideal) x0 x1 (ix2 a b) = ∑ k : Fin 128, x0 (ix2 a k) * x1 (ix2 k b) :=
  Cert.Lib.PlainDot.matmul_zero_apply reads_block none x0 x1 a b

theorem product_apply (X : FVec Ideal Cert.ReferenceIdeal.S65536x128 .f32) (W : FVec Ideal Cert.ReferenceIdeal.S128x64 .f32)
    (A : Fin 65536) (b : Fin 64) : product X W (ix2 A b) = ∑ k : Fin 128, X (ix2 A k) * W (ix2 k b) :=
  Cert.Lib.PlainDot.dotGeneral_apply reads_whole none .single X W A b

theorem zero_offsets : (![0, 0] : Fin 2 → Nat) = fun _ => 0 := funext fun a => by fin_cases a <;> rfl

/-- The printed index maps over the grid: the row-block windows sit at block row `t`, the weight window at the origin. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- WHAT POINT `t` WRITES BACK is block `t` of the whole product of the two input arrays as the region finds them. -/
theorem flushed_eq (c : Dev nD) (t : Fin cfg0.N) :
    (dat0 V c).flushed 2 t = ((cfg0.win 2).blk t).view.read (Elt Ideal) (product (V c main_arg0) (V c main_arg5)) := by
  show (cfg0.win 2).cut (grid0.coords t) ((dat0 V c).after 2 t) = _
  rw [after0_2]
  unfold out0_2
  rw [View.canon_unit_zero zero_offsets]
  simp only [View.ld_unit_zero (S := S8192x128) zero_offsets, View.ld_unit_zero (S := S128x64) zero_offsets]
  obtain ⟨e00, e01, e10, e11, e20, e21⟩ := index_facts t
  funext y
  obtain ⟨a, b, rfl⟩ : ∃ (a : Fin 8192) (b : Fin 64), y = ix2 a b := ⟨y 0, y 1, eq_ix2 y⟩
  have hN : cfg0.N = 8 := N_0
  have hA : t.val * 8192 + a.val < 65536 := by have := t.isLt; have := a.isLt; omega
  -- the output block's entry (a, b) is array entry (8192·t + a, b)
  have hout : ((cfg0.win 2).blk t).view.emb (ix2 a b) = ix2 (⟨t.val * 8192 + a.val, hA⟩ : Fin 65536) b := by
    funext ax; apply Fin.ext
    match ax with
    | ⟨0, _⟩ => show win0_2.index t (0 : Fin 2) * 8192 + 1 * a.val = t.val * 8192 + a.val; omega
    | ⟨1, _⟩ => show win0_2.index t (1 : Fin 2) * 64 + 1 * b.val = b.val; omega
  -- the row block's entry (a, k) is X's entry (8192·t + a, k); the weight block is W itself
  have hx : ∀ k : Fin 128, iblk0 V c 0 t (ix2 a k) = V c main_arg0 (ix2 (⟨t.val * 8192 + a.val, hA⟩ : Fin 65536) k) := fun k => by
    show V c main_arg0 (((cfg0.win 0).blk t).view.emb (ix2 a k)) = _
    refine congrArg (V c main_arg0) (funext fun ax => Fin.ext ?_)
    match ax with
    | ⟨0, _⟩ => show win0_0.index t (0 : Fin 2) * 8192 + 1 * a.val = t.val * 8192 + a.val; omega
    | ⟨1, _⟩ => show win0_0.index t (1 : Fin 2) * 128 + 1 * k.val = k.val; omega
  have hw : ∀ k : Fin 128, iblk0 V c 1 t (ix2 k b) = V c main_arg5 (ix2 k b) := fun k => by
    show V c main_arg5 (((cfg0.win 1).blk t).view.emb (ix2 k b)) = _
    refine congrArg (V c main_arg5) (funext fun ax => Fin.ext ?_)
    match ax with
    | ⟨0, _⟩ => show win0_1.index t (0 : Fin 2) * 128 + 1 * k.val = k.val; omega
    | ⟨1, _⟩ => show win0_1.index t (1 : Fin 2) * 64 + 1 * b.val = b.val; omega
  show k0_pay1 (F := Ideal) (iblk0 V c 0 t) (iblk0 V c 1 t) (ix2 a b)
    = product (V c main_arg0) (V c main_arg5) (((cfg0.win 2).blk t).view.emb (ix2 a b))
  rw [hout, stored_apply, product_apply]
  exact Finset.sum_congr rfl fun k _ => by rw [hx k, hw k]

/-- An index of the array is in point `t`'s block iff each coordinate is in the block's range on its axis. -/
theorem mem_block (t : Fin cfg0.N) (i : S65536x64.Idx) :
    i ∈ ((cfg0.win 2).blk t).view.set ↔ ∀ a : Fin 2, win0_2.index t a * S8192x64.size a ≤ (i a).val ∧ (i a).val < win0_2.index t a * S8192x64.size a + S8192x64.size a := by
  show i ∈ ((View.whole main_v0).slice (win0_2.rect t)).set ↔ _
  rw [View.set_slice_whole, Rect.mem_set_unit]
  exact Iff.rfl

/-- The eight row blocks tile the array: row `r` is in block `r / 8192`. -/
theorem covered (i : S65536x64.Idx) : ∃ t : Fin cfg0.N, (cfg0.win 2).flush t = true ∧ i ∈ ((cfg0.win 2).blk t).view.set := by
  have hi0 : (i 0).val < 65536 := (i 0).isLt
  have hi1 : (i 1).val < 64 := (i 1).isLt
  let t : Fin cfg0.N := ⟨(i 0).val / 8192, by rw [show cfg0.N = 8 from N_0]; omega⟩
  obtain ⟨-, -, -, -, e20, e21⟩ := index_facts t
  have ht : t.val = (i 0).val / 8192 := rfl
  refine ⟨t, flush0_2 t, ?_⟩
  rw [mem_block]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 64 ≤ (i 1).val ∧ (i 1).val < win0_2.index t (1 : Fin 2) * 64 + 64; omega

/-- THE ARRAY after the region: the whole product of the input arrays as the region finds them. -/
theorem final (c : Dev nD) : (dat0 V c).arrAt 2 cfg0.N = product (V c main_arg0) (V c main_arg5) :=
  (dat0 V c).arrAt_eq_of_cover 2 (product (V c main_arg0) (V c main_arg5)) (fun t _ => flushed_eq V c t) covered

end Cert.KernelIdeal.Projection

end
-- ==== Proof.Gate.lean ====
/-
  The gate region: after its eight grid points the result array holds, lane by lane, prior · output + bias row.

  Point t loads rows 4096·t … 4096·t + 4095 of the two lane-dense [32768, 128] arrays and the whole [1, 128] bias row, and
  stores their pointwise product plus the bias row repeated down the rows (the body's reshapes are to the same shape:
  identities). Entry (p, l) of the block is x(4096·t + p, l) · y(4096·t + p, l) + b(0, l): entry (4096·t + p, l) of the
  same expression on the whole arrays. The eight row blocks tile the 32768 rows.
-/
import proofs.«103432_j16578573762726_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gate

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem row_broadcasts : S1x128.Broadcasts S32768x128 := by decide

/-- The gate on whole lane-dense arrays: the pointwise product plus the bias row repeated down the rows. -/
abbrev gate (X Y : S32768x128.Idx → EReal) (B : S1x128.Idx → EReal) : S32768x128.Idx → EReal :=
  fun q => X q * Y q + broadcastTo S32768x128 B row_broadcasts q

theorem gate_apply (X Y : S32768x128.Idx → EReal) (B : S1x128.Idx → EReal) (r : Fin 32768) (l : Fin 128) :
    gate X Y B (ix2 r l) = X (ix2 r l) * Y (ix2 r l) + B (ix2 (0 : Fin 1) l) := by
  show X (ix2 r l) * Y (ix2 r l) + broadcastTo S32768x128 B row_broadcasts (ix2 r l) = _
  rw [broadcastTo_1b_ab_apply]

/-- What the body stores, at block entry `(p, l)`. -/
theorem stored_apply (x0 x1 : Vec Ideal S4096x128 .f32) (x2 : Vec Ideal S1x128 .f32) (p : Fin 4096) (l : Fin 128) :
    k1_pay1 (F := Ideal) x0 x1 x2 (ix2 p l) = x0 (ix2 p l) * x1 (ix2 p l) + x2 (ix2 (0 : Fin 1) l) := by
  unfold k1_pay1
  simp only [shapeCast_self]
  show x0 (ix2 p l) * x1 (ix2 p l) + broadcastTo S4096x128 x2 broadcasts_S1x128_S4096x128 (ix2 p l) = _
  rw [broadcastTo_1b_ab_apply]

theorem zero_offsets : (![0, 0] : Fin 2 → Nat) = fun _ => 0 := funext fun a => by fin_cases a <;> rfl

/-- The printed index maps over the grid: the three row-block windows sit at block row `t`, the bias window at the origin. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- WHAT POINT `t` WRITES BACK is block `t` of the gate of the three input arrays as the region finds them. -/
theorem flushed_eq (c : Dev nD) (t : Fin cfg1.N) :
    (dat1 V c).flushed 3 t
      = ((cfg1.win 3).blk t).view.read (Elt Ideal) (gate (V c main_v14) (V c main_v15) (V c main_v19)) := by
  show (cfg1.win 3).cut (grid1.coords t) ((dat1 V c).after 3 t) = _
  rw [after1_3]
  unfold out1_3
  rw [View.canon_unit_zero zero_offsets]
  simp only [View.ld_unit_zero (S := S4096x128) zero_offsets, View.ld_unit_zero (S := S1x128) zero_offsets]
  obtain ⟨e00, e01, e10, e11, e20, e21, e30, e31⟩ := index_facts t
  funext y
  obtain ⟨p, l, rfl⟩ : ∃ (p : Fin 4096) (l : Fin 128), y = ix2 p l := ⟨y 0, y 1, eq_ix2 y⟩
  have hN : cfg1.N = 8 := N_1
  have hR : t.val * 4096 + p.val < 32768 := by have := t.isLt; have := p.isLt; omega
  -- the output block's entry (p, l) is array entry (4096·t + p, l)
  have hout : ((cfg1.win 3).blk t).view.emb (ix2 p l) = ix2 (⟨t.val * 4096 + p.val, hR⟩ : Fin 32768) l := by
    funext ax; apply Fin.ext
    match ax with
    | ⟨0, _⟩ => show win1_3.index t (0 : Fin 2) * 4096 + 1 * p.val = t.val * 4096 + p.val; omega
    | ⟨1, _⟩ => show win1_3.index t (1 : Fin 2) * 128 + 1 * l.val = l.val; omega
  have hx : iblk1 V c 0 t (ix2 p l) = V c main_v14 (ix2 (⟨t.val * 4096 + p.val, hR⟩ : Fin 32768) l) := by
    show V c main_v14 (((cfg1.win 0).blk t).view.emb (ix2 p l)) = _
    refine congrArg (V c main_v14) (funext fun ax => Fin.ext ?_)
    match ax with
    | ⟨0, _⟩ => show win1_0.index t (0 : Fin 2) * 4096 + 1 * p.val = t.val * 4096 + p.val; omega
    | ⟨1, _⟩ => show win1_0.index t (1 : Fin 2) * 128 + 1 * l.val = l.val; omega
  have hy : iblk1 V c 1 t (ix2 p l) = V c main_v15 (ix2 (⟨t.val * 4096 + p.val, hR⟩ : Fin 32768) l) := by
    show V c main_v15 (((cfg1.win 1).blk t).view.emb (ix2 p l)) = _
    refine congrArg (V c main_v15) (funext fun ax => Fin.ext ?_)
    match ax with
    | ⟨0, _⟩ => show win1_1.index t (0 : Fin 2) * 4096 + 1 * p.val = t.val * 4096 + p.val; omega
    | ⟨1, _⟩ => show win1_1.index t (1 : Fin 2) * 128 + 1 * l.val = l.val; omega
  have hb : iblk1 V c 2 t (ix2 (0 : Fin 1) l) = V c main_v19 (ix2 (0 : Fin 1) l) := by
    show V c main_v19 (((cfg1.win 2).blk t).view.emb (ix2 (0 : Fin 1) l)) = _
    refine congrArg (V c main_v19) (funext fun ax => Fin.ext ?_)
    match ax with
    | ⟨0, _⟩ => show win1_2.index t (0 : Fin 2) * 1 + 1 * 0 = 0; omega
    | ⟨1, _⟩ => show win1_2.index t (1 : Fin 2) * 128 + 1 * l.val = l.val; omega
  show k1_pay1 (F := Ideal) (iblk1 V c 0 t) (iblk1 V c 1 t) (iblk1 V c 2 t) (ix2 p l)
    = gate (V c main_v14) (V c main_v15) (V c main_v19) (((cfg1.win 3).blk t).view.emb (ix2 p l))
  rw [hout, stored_apply, gate_apply, hx, hy, hb]

/-- An index of the array is in point `t`'s block iff each coordinate is in the block's range on its axis. -/
theorem mem_block (t : Fin cfg1.N) (i : S32768x128.Idx) :
    i ∈ ((cfg1.win 3).blk t).view.set ↔ ∀ a : Fin 2, win1_3.index t a * S4096x128.size a ≤ (i a).val ∧ (i a).val < win1_3.index t a * S4096x128.size a + S4096x128.size a := by
  show i ∈ ((View.whole main_v20).slice (win1_3.rect t)).set ↔ _
  rw [View.set_slice_whole, Rect.mem_set_unit]
  exact Iff.rfl

/-- The eight row blocks tile the array: row `r` is in block `r / 4096`. -/
theorem covered (i : S32768x128.Idx) : ∃ t : Fin cfg1.N, (cfg1.win 3).flush t = true ∧ i ∈ ((cfg1.win 3).blk t).view.set := by
  have hi0 : (i 0).val < 32768 := (i 0).isLt
  have hi1 : (i 1).val < 128 := (i 1).isLt
  let t : Fin cfg1.N := ⟨(i 0).val / 4096, by rw [show cfg1.N = 8 from N_1]; omega⟩
  obtain ⟨-, -, -, -, -, -, e30, e31⟩ := index_facts t
  have ht : t.val = (i 0).val / 4096 := rfl
  refine ⟨t, flush1_3 t, ?_⟩
  rw [mem_block]
  intro a
  match a with
  | ⟨0, _⟩ => show win1_3.index t (0 : Fin 2) * 4096 ≤ (i 0).val ∧ (i 0).val < win1_3.index t (0 : Fin 2) * 4096 + 4096; omega
  | ⟨1, _⟩ => show win1_3.index t (1 : Fin 2) * 128 ≤ (i 1).val ∧ (i 1).val < win1_3.index t (1 : Fin 2) * 128 + 128; omega

/-- THE ARRAY after the region: the gate of the three input arrays as the region finds them. -/
theorem final (c : Dev nD) : (dat1 V c).arrAt 3 cfg1.N = gate (V c main_v14) (V c main_v15) (V c main_v19) :=
  (dat1 V c).arrAt_eq_of_cover 3 (gate (V c main_v14) (V c main_v15) (V c main_v19)) (fun t _ => flushed_eq V c t) covered

end Cert.KernelIdeal.Gate

end
-- ==== Proof.Boundaries.lean ====
/-
  The buffer contents at the boundaries of @main, as terms of the argument arrays.

  After the projection region the support array holds X·W and every argument is as launched. The host stretch before
  the gate region then makes: the prior viewed lane-dense; the sparse product of the support array (column indices
  normalised, rows gathered, scaled by the edge values, scatter-added by row index into zeros) viewed lane-dense; and the
  bias tiled twice along a [1, 128] row. The gate region leaves the gate of those three, and the last host operation
  views it back as [65536, 64]: that is @main's result.
-/
import proofs.«103432_j16578573762726_2_alg».proof.Proof.Gen.KernelIdeal.Frame
import proofs.«103432_j16578573762726_2_alg».proof.Proof.Projection
import proofs.«103432_j16578573762726_2_alg».proof.Proof.Gate
import Idealize.ShloMosaic.Lib.StableHlo.Run
import Idealize.ShloMosaic.PureOps.Ideal

set_option maxRecDepth 16384

noncomputable section

namespace Cert.KernelIdeal.Boundaries

open Cert.KernelIdeal Cert.KernelIdeal.Gen
open Idealize.ShloMosaic Idealize.ShloMosaic.TcCoe Idealize.SL.Sem Idealize.ShloMosaic.StableHlo

/-- The sparse product as the host computes it: negative column indices wrapped by 65536, the support rows gathered
    at them, each scaled by its edge value, and the scaled rows scatter-added at the row indices into an array of zeros. -/
abbrev spmm (support : FVec Ideal S65536x64 .f32) (row col : IVec S1048576 32) (vals : FVec Ideal S1048576 .f32) :
    FVec Ideal S65536x64 .f32 :=
  Host.scatterAdd (F := Ideal) scatter_S65536x64_S1048576x1_S1048576x64_1_0_0_1
    (broadcastInDim S65536x64 ![] bcast_S_S65536x64 (constant (F := Ideal) S_ .f32 0x00000000#32))
    (broadcastInDim S1048576x1 ![0] bcast_S1048576_S1048576x1_0 row)
    (mulf
      (broadcastInDim S1048576x64 ![0, 1] bcast_S1048576x1_S1048576x64_0_1
        (broadcastInDim S1048576x1 ![0] bcast_S1048576_S1048576x1_0 vals))
      (Host.gather gather_S65536x64_S1048576x1_S1048576x64_1_0_n_n_0_1_164 support
        (broadcastInDim S1048576x1 ![0] bcast_S1048576_S1048576x1_0
          (select
            (cmpi .slt col (broadcastInDim S1048576 ![] bcast_S_S1048576 (constantI S_ 32 0#32)))
            (addi col (broadcastInDim S1048576 ![] bcast_S_S1048576 (constantI S_ 32 65536#32)))
            col))))

/-- The bias tiled twice along a [1, 128] row: [64] → [1, 64] → [2, 64] → [128] → [1, 128]. -/
abbrev tiledBias (b : FVec Ideal S64 .f32) : FVec Ideal S1x128 .f32 :=
  shapeCast S1x128 (shapeCast S128 (broadcastInDim S2x64 ![0, 1] bcast_S1x64_S2x64_0_1 (shapeCast S1x64 b shapeCasts_S64_S1x64))
    shapeCasts_S2x64_S128) shapeCasts_S128_S1x128

variable (m : (ℓ : Loc nD τ sig) → Buf (Elt Ideal) ℓ) (ρ : Dev nD → PrngReg)

/-! ## After the projection region -/

/-- The support array holds the whole product of the two launched operands. -/
theorem support_after (c : Dev nD) : W1 m ρ c (Proc.devRef .tc main_v0)
    = Projection.product (m ((c : Thread nD τ).loc main_arg0)) (m ((c : Thread nD τ).loc main_arg5)) :=
  (W1_arr m ρ c 2).trans (Projection.final (V0 m ρ) c)

/-- A buffer that is no array of the projection region is as launched. -/
theorem kept_after (c : Dev nD) (b : Ref sig .tc) (hb : ∀ w, Pipeline.arrRef spec0 w ≠ b) :
    W1 m ρ c (Proc.devRef .tc b) = m ((c : Thread nD τ).loc b) :=
  W1_of_ne m ρ c b hb

/-! ## On entry to the gate region -/

/-- The prior, viewed lane-dense. -/
theorem entry_prior (c : Dev nD) : V2 m ρ c main_v14
    = shapeCast S32768x128 (m ((c : Thread nD τ).loc main_arg4)) shapeCasts_S65536x64_S32768x128 := by
  show StableHlo.after hostOps1 (W1 m ρ c) (Proc.devRef .tc main_v14) = _
  after_results
  rw [kept_after m ρ c main_arg4 (by decide)]
  rfl

/-- The bias, tiled twice along a row. -/
theorem entry_bias (c : Dev nD) : V2 m ρ c main_v19 = tiledBias (m ((c : Thread nD τ).loc main_arg6)) := by
  show StableHlo.after hostOps1 (W1 m ρ c) (Proc.devRef .tc main_v19) = _
  after_results
  rw [kept_after m ρ c main_arg6 (by decide)]
  rfl

set_option maxHeartbeats 2000000 in
/-- The sparse product of the projection, viewed lane-dense. -/
theorem entry_output (c : Dev nD) : V2 m ρ c main_v15
    = shapeCast S32768x128
        (spmm (Projection.product (m ((c : Thread nD τ).loc main_arg0)) (m ((c : Thread nD τ).loc main_arg5)))
          (m ((c : Thread nD τ).loc main_arg1)) (m ((c : Thread nD τ).loc main_arg2)) (m ((c : Thread nD τ).loc main_arg3)))
        shapeCasts_S65536x64_S32768x128 := by
  show StableHlo.after hostOps1 (W1 m ρ c) (Proc.devRef .tc main_v15) = _
  after_results
  rw [support_after m ρ c, kept_after m ρ c main_arg1 (by decide), kept_after m ρ c main_arg2 (by decide),
    kept_after m ρ c main_arg3 (by decide)]
  rfl

/-! ## @main's result -/

/-- The result buffer at the last boundary: the gate of the three entry arrays, viewed back as [65536, 64]. -/
theorem result (c : Dev nD) : W4 m ρ c (Proc.devRef .tc main_v21)
    = shapeCast S65536x64
        (Gate.gate
          (shapeCast S32768x128 (m ((c : Thread nD τ).loc main_arg4)) shapeCasts_S65536x64_S32768x128)
          (shapeCast S32768x128
            (spmm (Projection.product (m ((c : Thread nD τ).loc main_arg0)) (m ((c : Thread nD τ).loc main_arg5)))
              (m ((c : Thread nD τ).loc main_arg1)) (m ((c : Thread nD τ).loc main_arg2)) (m ((c : Thread nD τ).loc main_arg3)))
            shapeCasts_S65536x64_S32768x128)
          (tiledBias (m ((c : Thread nD τ).loc main_arg6))))
        shapeCasts_S32768x128_S65536x64 := by
  have hgate : W3 m ρ c (Proc.devRef .tc main_v20)
      = Gate.gate (V2 m ρ c main_v14) (V2 m ρ c main_v15) (V2 m ρ c main_v19) :=
    (W3_arr m ρ c 3).trans (Gate.final (V2 m ρ) c)
  show StableHlo.after hostOps2 (W3 m ρ c) (Proc.devRef .tc main_v21) = _
  after_results
  rw [hgate, entry_prior m ρ c, entry_output m ρ c, entry_bias m ρ c]
  rfl

end Cert.KernelIdeal.Boundaries

end
-- ==== Proof.LibBiasLayout.lean ====
/-
  A bias laid out as a row, and a scalar spread over an array, read at an index.

  `broadcast_in_dim` of a rank-0 value to any shape reads that one value everywhere; of a `[1, b]` row to `[a, b]` along
  dims (0, 1) it reads, at `(p, c)`, the row at `c`; of a `[b]` vector to a `[1, b]` row along dim 1 it reads, at
  `(u, i)`, the vector at `i` — which is also what the reshape `[b] → [1, b]` reads, so the two layouts of a bias as a
  row are one array.
-/
import Idealize.ShloMosaic.Lib.Pipeline.Value
import Idealize.ShloMosaic.Lib.ValueIdx
import Idealize.ShloMosaic.Lib.ValueLayout

noncomputable section

namespace Cert.Lib.BiasLayout

open Idealize.ShloMosaic Idealize.ShloMosaic.ValueIdx

variable {α : Type}

/-- A rank-0 value broadcast to any shape reads that value at every index. -/
theorem bcast_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A `[1, b]` row broadcast to `[a, b]` along dims (0, 1) reads, at `(p, c)`, the row at `c`. -/
theorem bcast_row_apply {a b : ℕ} (dims : Fin 2 → Fin 2) (hd : dims = ![0, 1])
    (h : (⟨2, ![1, b]⟩ : Shape).BroadcastsInDim ⟨2, ![a, b]⟩ dims) (v : (⟨2, ![1, b]⟩ : Shape).Idx → α)
    (p : Fin a) (c : Fin b) : broadcastInDim ⟨2, ![a, b]⟩ dims h v (ix2 p c) = v (ix2 (0 : Fin 1) c) := by
  subst hd
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A `[b]` vector broadcast to a `[1, b]` row along dim 1 reads, at `(u, i)`, the vector at `i`. -/
theorem bcast_vec_row_apply {b : ℕ} (dims : Fin 1 → Fin 2) (hd : dims = ![1])
    (h : (⟨1, ![b]⟩ : Shape).BroadcastsInDim ⟨2, ![1, b]⟩ dims) (x : (⟨1, ![b]⟩ : Shape).Idx → α)
    (u : Fin 1) (i : Fin b) : broadcastInDim ⟨2, ![1, b]⟩ dims h x (ix2 u i) = x (ix1 i) := by
  subst hd
  refine broadcastInDim_apply _ h x (ix2 u i) (ix1 i) fun ax => ?_
  match ax with
  | ⟨0, _⟩ =>
    show i.val = if b = 1 then 0 else i.val
    split
    · have := i.isLt; omega
    · rfl

/-- So the reshape `[b] → [1, b]` and the broadcast `[b] → [1, b]` along dim 1 lay a vector out as the same row. -/
theorem reshape_row_eq_bcast_row {b : ℕ} (dims : Fin 1 → Fin 2) (hd : dims = ![1])
    (hc : (⟨1, ![b]⟩ : Shape).ShapeCasts ⟨2, ![1, b]⟩) (hb : (⟨1, ![b]⟩ : Shape).BroadcastsInDim ⟨2, ![1, b]⟩ dims)
    (x : (⟨1, ![b]⟩ : Shape).Idx → α) :
    shapeCast ⟨2, ![1, b]⟩ x hc = broadcastInDim ⟨2, ![1, b]⟩ dims hb x := by
  funext j
  obtain ⟨u, i, rfl⟩ : ∃ (u : Fin 1) (i : Fin b), j = ix2 u i := ⟨j 0, j 1, eq_ix2 j⟩
  rw [shapeCast_a_1a_apply x hc u i, bcast_vec_row_apply dims hd hb x u i]

end Cert.Lib.BiasLayout

end
-- ==== Proof.LaneDense.lean ====
/-
  The lane-dense view of a [65536, 64] array, and a bias laid out along it.

  A row-major [65536, 64] array viewed as [32768, 128] packs node rows 2r and 2r+1 side by side in lane row r: entry
  (a, j) sits in lane row a / 2 at lane (a mod 2)·64 + j, both positions being 64·a + j in row-major order. A bias of 64
  entries tiled twice along the 128 lanes therefore puts entry l mod 64 at lane l, which for the lane of (a, j) is entry j:
  the per-feature bias of the [65536, 64] layout.
-/
import Idealize.ShloMosaic.Lib.Pipeline.Value
import Idealize.ShloMosaic.Lib.ValueIdx
import Idealize.ShloMosaic.Lib.ValueLayout
import Mathlib.Data.EReal.Basic
import proofs.«103432_j16578573762726_2_alg».proof.Proof.LibBiasLayout

noncomputable section

namespace Cert.LaneDense

open Idealize.ShloMosaic Idealize.ShloMosaic.ValueIdx

variable {α : Type}

/-- The node layout: one row per node, 64 features. -/
abbrev Nodes : Shape := ⟨2, ![65536, 64]⟩
/-- The lane-dense layout of the same 4194304 entries: 128 lanes per row. -/
abbrev Lanes : Shape := ⟨2, ![32768, 128]⟩
abbrev Vec64 : Shape := ⟨1, ![64]⟩
abbrev Row64 : Shape := ⟨2, ![1, 64]⟩
abbrev Two64 : Shape := ⟨2, ![2, 64]⟩
abbrev Vec128 : Shape := ⟨1, ![128]⟩
abbrev Row128 : Shape := ⟨2, ![1, 128]⟩

/-- The lane-dense array viewed back as nodes reads, at node `a` and feature `j`, lane row `a / 2` at lane
    `(a mod 2)·64 + j`. -/
theorem nodes_of_lanes (y : Lanes.Idx → α) (h : Lanes.ShapeCasts Nodes) (a : Fin 65536) (j : Fin 64) :
    shapeCast Nodes y h (ix2 a j)
      = y (ix2 (⟨a.val / 2, by have := a.isLt; omega⟩ : Fin 32768) (⟨a.val % 2 * 64 + j.val, by have := j.isLt; omega⟩ : Fin 128)) := by
  refine shapeCast_apply y h _ _ ?_
  rw [Shape.rowMajor_val_two, Shape.rowMajor_val_two]
  show a.val / 2 * 128 + (a.val % 2 * 64 + j.val) = a.val * 64 + j.val
  omega

/-- A 64-entry vector laid out as a [1, 128] row by the chain reshape [64]→[1,64], broadcast to [2,64], reshape to
    [128], reshape to [1,128]: lane `l` holds entry `l mod 64`. -/
theorem tiled_row_apply (b : Vec64.Idx → α) (h1 : Vec64.ShapeCasts Row64)
    (h2 : Row64.BroadcastsInDim Two64 (![0, 1] : Fin 2 → Fin 2)) (h3 : Two64.ShapeCasts Vec128) (h4 : Vec128.ShapeCasts Row128)
    (u : Fin 1) (l : Fin 128) :
    shapeCast Row128 (shapeCast Vec128 (broadcastInDim Two64 ![0, 1] h2 (shapeCast Row64 b h1)) h3) h4 (ix2 u l)
      = b (ix1 (⟨l.val % 64, Nat.mod_lt _ (by norm_num)⟩ : Fin 64)) := by
  rw [shapeCast_a_1a_apply _ h4 u l]
  have e3 : shapeCast Vec128 (broadcastInDim Two64 ![0, 1] h2 (shapeCast Row64 b h1)) h3 (ix1 l)
      = broadcastInDim Two64 ![0, 1] h2 (shapeCast Row64 b h1)
          (ix2 (⟨l.val / 64, by have := l.isLt; omega⟩ : Fin 2) (⟨l.val % 64, Nat.mod_lt _ (by norm_num)⟩ : Fin 64)) := by
    refine shapeCast_apply _ h3 _ _ ?_
    rw [Shape.rowMajor_val_two, Shape.rowMajor_val_one]
    show l.val / 64 * 64 + l.val % 64 = l.val
    omega
  rw [e3, Cert.Lib.BiasLayout.bcast_row_apply _ rfl h2, shapeCast_a_1a_apply _ h1]

/-- The per-feature bias of the node layout: a 64-entry vector broadcast to a [1, 64] row and then down the 65536
    rows reads, at `(a, j)`, entry `j`. -/
theorem feature_bias_apply (b : Vec64.Idx → α) (h1 : Vec64.BroadcastsInDim Row64 (![1] : Fin 1 → Fin 2))
    (h2 : Row64.BroadcastsInDim Nodes (![0, 1] : Fin 2 → Fin 2)) (a : Fin 65536) (j : Fin 64) :
    broadcastInDim Nodes ![0, 1] h2 (broadcastInDim Row64 ![1] h1 b) (ix2 a j) = b (ix1 j) := by
  rw [Cert.Lib.BiasLayout.bcast_row_apply _ rfl h2, Cert.Lib.BiasLayout.bcast_vec_row_apply _ rfl h1]

/-- The lane of `(a, j)` reduced mod 64 is `j`. -/
theorem lane_mod (a : Fin 65536) (j : Fin 64) : (a.val % 2 * 64 + j.val) % 64 = j.val := by
  have := j.isLt; omega

/-- A node-layout array viewed lane-dense reads, at the lane of `(a, j)`, its entry `(a, j)`. -/
theorem lanes_at (x : Nodes.Idx → α) (h : Nodes.ShapeCasts Lanes) (a : Fin 65536) (j : Fin 64) :
    shapeCast Lanes x h
        (ix2 (⟨a.val / 2, by have := a.isLt; omega⟩ : Fin 32768) (⟨a.val % 2 * 64 + j.val, by have := j.isLt; omega⟩ : Fin 128))
      = x (ix2 a j) := by
  refine shapeCast_apply x h _ _ ?_
  rw [Shape.rowMajor_val_two, Shape.rowMajor_val_two]
  show a.val * 64 + j.val = a.val / 2 * 128 + (a.val % 2 * 64 + j.val)
  omega

/-- THE GATE, LANE-DENSE OR NOT. Viewing two node-layout arrays lane-dense, multiplying them lane by lane, adding the
    twice-tiled bias row down the rows and viewing the result back as nodes is: multiply entry by entry and add the
    per-feature bias. Only re-indexing is involved, so it holds on the extended reals without any finiteness. -/
theorem gate_in_lanes (P M : Nodes.Idx → EReal) (b : Vec64.Idx → EReal)
    (hc : Nodes.ShapeCasts Lanes) (hc' : Lanes.ShapeCasts Nodes) (hb : Row128.Broadcasts Lanes)
    (h1 : Vec64.ShapeCasts Row64) (h2 : Row64.BroadcastsInDim Two64 (![0, 1] : Fin 2 → Fin 2)) (h3 : Two64.ShapeCasts Vec128)
    (h4 : Vec128.ShapeCasts Row128)
    (g1 : Vec64.BroadcastsInDim Row64 (![1] : Fin 1 → Fin 2)) (g2 : Row64.BroadcastsInDim Nodes (![0, 1] : Fin 2 → Fin 2)) :
    shapeCast Nodes (fun q => shapeCast Lanes P hc q * shapeCast Lanes M hc q
        + broadcastTo Lanes (shapeCast Row128 (shapeCast Vec128 (broadcastInDim Two64 ![0, 1] h2 (shapeCast Row64 b h1)) h3) h4) hb q) hc'
      = fun i => P i * M i + broadcastInDim Nodes ![0, 1] g2 (broadcastInDim Row64 ![1] g1 b) i := by
  funext i
  obtain ⟨a, j, rfl⟩ : ∃ (a : Fin 65536) (j : Fin 64), i = ix2 a j := ⟨i 0, i 1, eq_ix2 i⟩
  rw [nodes_of_lanes _ hc' a j]
  beta_reduce
  rw [lanes_at P hc a j, lanes_at M hc a j, broadcastTo_1b_ab_apply, tiled_row_apply b h1 h2 h3 h4, feature_bias_apply b g1 g2 a j]
  exact congrArg (fun z : Fin 64 => P (ix2 a j) * M (ix2 a j) + b (ix1 z)) (Fin.ext (lane_mod a j))

end Cert.LaneDense

end
-- ==== Proof.Equivalence.lean ====
/-
  The idealized kernel program and the idealized reference compute one function of the argument arrays.

  Both are prior · S + bias, where S is the sparse product of the projection X·W: the two programs apply the same host
  operations (index normalisation, gather, scaling, scatter-add into zeros) to the same projection — the kernel's being
  the tiled region's whole product, the reference's one contraction — so S is one term on both sides. The kernel applies
  the gate on the lane-dense [32768, 128] view with the bias tiled twice along the lanes and views the result back; the
  reference applies it on the [65536, 64] layout with the bias broadcast down the rows. The two agree entry by entry by
  re-indexing alone (no law of arithmetic is used, so the inputs' finiteness is never needed).
-/
import proofs.«103432_j16578573762726_2_alg».proof.Defs
import proofs.«103432_j16578573762726_2_alg».proof.Proof.MainRun
import proofs.«103432_j16578573762726_2_alg».proof.Proof.Boundaries
import proofs.«103432_j16578573762726_2_alg».proof.Proof.LaneDense
import proofs.«103432_j16578573762726_2_alg».proof.Proof.Gen.ReferenceIdeal.Run
import proofs.«103432_j16578573762726_2_alg».proof.Proof.Gen.Pre_finite_inputs

set_option maxRecDepth 16384

noncomputable section

namespace Cert.Proof.Equivalence

open Idealize.ShloMosaic Idealize.ShloMosaic.TcCoe Idealize.SL.Sem

/-- The idealized kernel program's result as a term of seven arrays. -/
abbrev kernelResult (X : FVec Ideal Cert.KernelIdeal.S65536x128 .f32)
    (row col : IVec Cert.KernelIdeal.S1048576 32) (vals : FVec Ideal Cert.KernelIdeal.S1048576 .f32)
    (P : FVec Ideal Cert.KernelIdeal.S65536x64 .f32) (W : FVec Ideal Cert.KernelIdeal.S128x64 .f32)
    (b : FVec Ideal Cert.KernelIdeal.S64 .f32) :
    FVec Ideal Cert.KernelIdeal.S65536x64 .f32 :=
  shapeCast Cert.KernelIdeal.S65536x64
    (Cert.KernelIdeal.Gate.gate
      (shapeCast Cert.KernelIdeal.S32768x128 P Cert.KernelIdeal.Facts₀.shapeCasts_S65536x64_S32768x128)
      (shapeCast Cert.KernelIdeal.S32768x128
        (Cert.KernelIdeal.Boundaries.spmm (Cert.KernelIdeal.Projection.product X W) row col vals)
        Cert.KernelIdeal.Facts₀.shapeCasts_S65536x64_S32768x128)
      (Cert.KernelIdeal.Boundaries.tiledBias b))
    Cert.KernelIdeal.Facts₀.shapeCasts_S32768x128_S65536x64

/-- On the extended reals `multiply` then `add` of arrays is, entry by entry, the product then the sum. -/
theorem gate_entrywise {s : Shape} (p q r : FVec Ideal s .f32) : addf (mulf p q) r = fun i => p i * q i + r i := rfl

/-- The lane-dense gate viewed back is the gate on the node layout: prior · S + per-feature bias, with S the
    sparse product of the projection. -/
theorem kernelResult_eq (X : FVec Ideal Cert.KernelIdeal.S65536x128 .f32)
    (row col : IVec Cert.KernelIdeal.S1048576 32) (vals : FVec Ideal Cert.KernelIdeal.S1048576 .f32)
    (P : FVec Ideal Cert.KernelIdeal.S65536x64 .f32) (W : FVec Ideal Cert.KernelIdeal.S128x64 .f32)
    (b : FVec Ideal Cert.KernelIdeal.S64 .f32) :
    kernelResult X row col vals P W b
      = addf (mulf P (Cert.KernelIdeal.Boundaries.spmm (Cert.KernelIdeal.Projection.product X W) row col vals))
          (broadcastInDim Cert.ReferenceIdeal.S65536x64 ![0, 1] Cert.ReferenceIdeal.Facts₀.bcast_S1x64_S65536x64_0_1
            (broadcastInDim Cert.ReferenceIdeal.S1x64 ![1] Cert.ReferenceIdeal.Facts₀.bcast_S64_S1x64_1 b)) :=
  (Cert.LaneDense.gate_in_lanes P (Cert.KernelIdeal.Boundaries.spmm (Cert.KernelIdeal.Projection.product X W) row col vals) b
    _ _ _ _ _ _ _ _ _).trans (gate_entrywise P _ _).symm

/-- The reference's sparse product, stated with its own dimension records and side conditions, is the kernel's term
    for term: the records agree field by field, and side conditions are propositions. -/
theorem sparse_eq (S : FVec Ideal Cert.KernelIdeal.S65536x64 .f32)
    (row col : IVec Cert.KernelIdeal.S1048576 32) (vals : FVec Ideal Cert.KernelIdeal.S1048576 .f32) :
    (open Cert.ReferenceIdeal Cert.ReferenceIdeal.Facts₀ in
      Host.scatterAdd (F := Ideal) scatter_S65536x64_S1048576x1_S1048576x64_1_0_0_1
          (broadcastInDim S65536x64 ![] bcast_S_S65536x64 (constant (F := Ideal) S_ .f32 0x00000000#32))
          (broadcastInDim S1048576x1 ![0] bcast_S1048576_S1048576x1_0 row)
          (mulf (broadcastInDim S1048576x64 ![0, 1] bcast_S1048576x1_S1048576x64_0_1 (broadcastInDim S1048576x1 ![0] bcast_S1048576_S1048576x1_0 vals))
            (Host.gather gather_S65536x64_S1048576x1_S1048576x64_1_0_n_n_0_1_164 S
              (broadcastInDim S1048576x1 ![0] bcast_S1048576_S1048576x1_0
                (select (cmpi .slt col (broadcastInDim S1048576 ![] bcast_S_S1048576 (constantI S_ 32 0#32)))
                  (addi col (broadcastInDim S1048576 ![] bcast_S_S1048576 (constantI S_ 32 65536#32))) col)))))
      = Cert.KernelIdeal.Boundaries.spmm S row col vals := rfl

/-- The reference's result term is the same function: its sparse product is the kernel's (`sparse_eq`, at the
    projection written as one contraction), and its `multiply` and `add` are the extended reals' product and sum
    entry by entry. -/
theorem referenceResult_eq (X : FVec Ideal Cert.KernelIdeal.S65536x128 .f32)
    (row col : IVec Cert.KernelIdeal.S1048576 32) (vals : FVec Ideal Cert.KernelIdeal.S1048576 .f32)
    (P : FVec Ideal Cert.KernelIdeal.S65536x64 .f32) (W : FVec Ideal Cert.KernelIdeal.S128x64 .f32)
    (b : FVec Ideal Cert.KernelIdeal.S64 .f32) :
    (open Cert.ReferenceIdeal Cert.ReferenceIdeal.Facts₀ in
      addf (mulf P (Host.scatterAdd (F := Ideal) scatter_S65536x64_S1048576x1_S1048576x64_1_0_0_1
          (broadcastInDim S65536x64 ![] bcast_S_S65536x64 (constant (F := Ideal) S_ .f32 0x00000000#32))
          (broadcastInDim S1048576x1 ![0] bcast_S1048576_S1048576x1_0 row)
          (mulf (broadcastInDim S1048576x64 ![0, 1] bcast_S1048576x1_S1048576x64_0_1 (broadcastInDim S1048576x1 ![0] bcast_S1048576_S1048576x1_0 vals))
            (Host.gather gather_S65536x64_S1048576x1_S1048576x64_1_0_n_n_0_1_164
              (Host.dotGeneral (F := Ideal) dot_S65536x128_S128x64_S65536x64_1_0_0_1_n_n none X W)
              (broadcastInDim S1048576x1 ![0] bcast_S1048576_S1048576x1_0
                (select (cmpi .slt col (broadcastInDim S1048576 ![] bcast_S_S1048576 (constantI S_ 32 0#32)))
                  (addi col (broadcastInDim S1048576 ![] bcast_S_S1048576 (constantI S_ 32 65536#32))) col))))))
        (broadcastInDim S65536x64 ![0, 1] bcast_S1x64_S65536x64_0_1 (broadcastInDim S1x64 ![1] bcast_S64_S1x64_1 b)))
      = kernelResult X row col vals P W b :=
  (congrArg (fun s : FVec Ideal Cert.KernelIdeal.S65536x64 .f32 =>
      addf (mulf P s)
        (broadcastInDim Cert.ReferenceIdeal.S65536x64 ![0, 1] Cert.ReferenceIdeal.Facts₀.bcast_S1x64_S65536x64_0_1
          (broadcastInDim Cert.ReferenceIdeal.S1x64 ![1] Cert.ReferenceIdeal.Facts₀.bcast_S64_S1x64_1 b)))
    (sparse_eq (Cert.KernelIdeal.Projection.product X W) row col vals)).trans (kernelResult_eq X row col vals P W b).symm

/-! ## The two runs -/

variable (m : (ℓ : Loc Cert.KernelIdeal.nD Cert.KernelIdeal.τ Cert.KernelIdeal.sig) → Buf (Elt Ideal) ℓ)

/-- The idealized kernel program's result on core `c`, of the launch memory. -/
abbrev resultOf (c : Dev Cert.KernelIdeal.nD) :
    Buf (Elt Ideal) ((c.tc : Thread Cert.KernelIdeal.nD Cert.KernelIdeal.τ).loc Cert.KernelIdeal.main_v21) :=
  open Cert.KernelIdeal in
  kernelResult (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))

/-- The idealized kernel program runs to `resultOf`, its arguments unchanged. -/
theorem kernel_run (ρ : Dev Cert.KernelIdeal.nD → PrngReg) :
    open Cert.KernelIdeal in
    θ_run defs (onTc (τ := τ) (main (F := Ideal))) ⟨m, fun _ => 0, ρ⟩ (fun r => ∀ c : Dev nD,
      r.2.mem ((c.tc : Thread nD τ).loc main_v21) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run Cert.KernelIdeal.defs _ _).mono
    (fun r h c => ⟨(h c).1.trans (Cert.KernelIdeal.Boundaries.result m ρ c), (h c).2⟩)
    (Cert.KernelIdeal.MainRun.run_named m ρ)

/-- Run from memories that agree on the arguments, the two idealized programs end with equal results. -/
theorem algebraic : Cert.algebraic_KernelIdeal_ReferenceIdeal := by
  intro m ρ m' ρ' _ hagree
  refine ⟨resultOf m, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  exact referenceResult_eq _ _ _ _ _ _ _

end Cert.Proof.Equivalence

end
-- ==== Proof.lean ====
/- The proof of `Cert.Claim` for a graph-convolution layer: result = prior · S + bias, where S is the sparse product
   (gather by column index, scale by edge value, scatter-add by row index) of the dense projection X·W.

   The kernel program computes X·W in a tiled region (eight row blocks of 8192 rows; its casts to a narrower float
   format are identities on the extended reals), applies the same host gather / scale / scatter-add as the reference, and
   then applies the gate prior · S + bias in a second tiled region on the lane-dense [32768, 128] view of the
   [65536, 64] arrays, the bias tiled twice along the 128 lanes. The reference applies one contraction and the gate on the
   [65536, 64] layout.
   - The three frames: the two kernel programs' are the generated frame certificates; the reference's is its
     generated run with the result dropped.
   - The idealization rewrote nothing, so there is nothing to preserve.
   - Equal results (Proof/Equivalence.lean): the projection region leaves the whole product (Proof/Projection.lean), the
     gate region leaves the gate of its three lane-dense inputs (Proof/Gate.lean), the host stretches between are read back
     as terms of the arguments (Proof/Boundaries.lean, over the run of Proof/MainRun.lean), and the lane-dense gate viewed
     back is the gate itself by re-indexing alone (Proof/LaneDense.lean): no arithmetic law, no use of finiteness. -/
import proofs.«103432_j16578573762726_2_alg».proof.Defs
import proofs.«103432_j16578573762726_2_alg».proof.Proof.Equivalence
import proofs.«103432_j16578573762726_2_alg».proof.Proof.Gen.Kernel
import proofs.«103432_j16578573762726_2_alg».proof.Proof.Gen.Kernel.Frame
import proofs.«103432_j16578573762726_2_alg».proof.Proof.Gen.KernelIdeal
import proofs.«103432_j16578573762726_2_alg».proof.Proof.Gen.KernelIdeal.Frame
import proofs.«103432_j16578573762726_2_alg».proof.Proof.Gen.ReferenceIdeal
import proofs.«103432_j16578573762726_2_alg».proof.Proof.Gen.ReferenceIdeal.Run
import proofs.«103432_j16578573762726_2_alg».proof.Proof.Gen.Pre_finite_inputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, Equivalence.algebraic⟩

end Cert.Proof

end
